-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x128 : Shape := ⟨2, ![2000000, 128]⟩
abbrev S2000000 : Shape := ⟨1, ![2000000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S50000 : S_.BroadcastsInDim S50000 (![] : Fin 0 → Fin S50000.rank)
  reducesTo_S50000_S_d0 : S50000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2000000x128 .f32) (main_arg1 : IVec S2000000 32) (main_arg2 : FVec F S50000 .f32) (main_arg3 : FVec F S128x64 .f32) (main_arg4 : FVec F S64 .f32) (main_arg5 : FVec F S64x1 .f32) (main_arg6 : FVec F S1 .f32) : IVec S_ 1 :=
  let main_v0 : FVec F S2000000x128 .f32 := Host.absf main_arg0
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S50000 .f32 := Host.absf main_arg2
  let main_cst_0 : FVec F S_ .f32 := constant S_ .f32 0x7F800000#32
  let main_v5 : FVec F S50000 .f32 := broadcastInDim S50000 ![] bcast_S_S50000 main_cst_0
  let main_v6 : IVec S50000 1 := cmpf .olt main_v4 main_v5
  let main_c_1 : IVec S_ 1 := constantI S_ 1 1#1
  let main_v7 : IVec S_ 1 := (fun x v => Host.reduce IntOp.andi x v reducesTo_S50000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S2000000x128 : Shape := ⟨2, ![2000000, 128]⟩
abbrev S2000000 : Shape := ⟨1, ![2000000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2000000x1 : Shape := ⟨2, ![2000000, 1]⟩
abbrev S16000x128 : Shape := ⟨2, ![16000, 128]⟩
abbrev S16000x1 : Shape := ⟨2, ![16000, 1]⟩
abbrev S16000x64 : Shape := ⟨2, ![16000, 64]⟩
abbrev S1x64 : Shape := ⟨2, ![1, 64]⟩
abbrev S1x1 : Shape := ⟨2, ![1, 1]⟩
abbrev S_ : Shape := ⟨0, ![]⟩

abbrev nBuf : Space → Nat
  | .hbm => 49
  | .vmem => 8
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S50000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2000000x1, .f32⟩
  | .hbm, ⟨8, _⟩ => ⟨S2000000, .f32⟩
  | .hbm, ⟨9, _⟩ => ⟨S_, .f32⟩
  | .hbm, ⟨10, _⟩ => ⟨S50000, .f32⟩
  | .hbm, ⟨11, _⟩ => ⟨S2000000x1, .i32⟩
  | .hbm, ⟨12, _⟩ => ⟨S50000, .f32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S50000, .f32⟩
  | .hbm, ⟨17, _⟩ => ⟨S2000000x1, .i32⟩
  | .hbm, ⟨18, _⟩ => ⟨S50000, .f32⟩
  | .hbm, ⟨19, _⟩ => ⟨S_, .i32⟩
  | .hbm, ⟨20, _⟩ => ⟨S2000000, .i32⟩
  | .hbm, ⟨21, _⟩ => ⟨S2000000, .i1⟩
  | .hbm, ⟨22, _⟩ => ⟨S_, .i32⟩
  | .hbm, ⟨23, _⟩ => ⟨S2000000, .i32⟩
  | .hbm, ⟨24, _⟩ => ⟨S2000000, .i32⟩
  | .hbm, ⟨25, _⟩ => ⟨S2000000, .i32⟩
  | .hbm, ⟨26, _⟩ => ⟨S2000000x1, .i32⟩
  | .hbm, ⟨27, _⟩ => ⟨S2000000, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S2000000, .f32⟩
  | .hbm, ⟨37, _⟩ => ⟨S2000000, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000, .f32⟩
  | .hbm, ⟨47, _⟩ => ⟨S2000000, .f32⟩
  | .hbm, ⟨48, _⟩ => ⟨S2000000, .f32⟩
  | .local _ .vmem, ⟨0, _⟩ => ⟨S16000x128, .f32⟩
  | .local _ .vmem, ⟨1, _⟩ => ⟨S16000x128, .f32⟩
  | .local _ .vmem, ⟨2, _⟩ => ⟨S128x64, .f32⟩
  | .local _ .vmem, ⟨3, _⟩ => ⟨S64, .f32⟩
  | .local _ .vmem, ⟨4, _⟩ => ⟨S64x1, .f32⟩
  | .local _ .vmem, ⟨5, _⟩ => ⟨S1, .f32⟩
  | .local _ .vmem, ⟨6, _⟩ => ⟨S16000x1, .f32⟩
  | .local _ .vmem, ⟨7, _⟩ => ⟨S16000x1, .f32⟩
  | _, _ => ⟨S2000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S16000x128_S16000x128_0_0 : ∀ a, (![0, 0] : Fin 2 → Nat) a + S16000x128.size a ≤ S16000x128.size a
  h_S16000x128 : 0 < S16000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S64_S1x64 : S64.ShapeCasts S1x64
  broadcasts_S1x64_S16000x64 : S1x64.Broadcasts S16000x64
  shapeCasts_S1_S1x1 : S1.ShapeCasts S1x1
  broadcasts_S1x1_S16000x1 : S1x1.Broadcasts S16000x1
  inb_S16000x1_S16000x1_0_0 : ∀ a, (![0, 0] : Fin 2 → Nat) a + S16000x1.size a ≤ S16000x1.size a
  h_S16000x1 : 0 < S16000x1.numel
  shapeCasts_S2000000x1_S2000000 : S2000000x1.ShapeCasts S2000000
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  dot_S16000x128_S128x64_S16000x64_1_0_0_1_n_n_wf : DotDims.WF S16000x128 S128x64 S16000x64 [1] [0] [0] [1] [] []
  dot_S16000x64_S64x1_S16000x1_1_0_0_1_n_n_wf : DotDims.WF S16000x64 S64x1 S16000x1 [1] [0] [0] [1] [] []
  scatter_S50000_S2000000x1_S2000000_n_0_0_1_wf : ScatterDims.WF S50000 S2000000x1 S2000000 [] [0] [0] 1
  gather_S50000_S2000000x1_S2000000_n_0_n_n_0_1_1_wf : GatherDims.WF S50000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S2000000x128.size a
  hwx0_0 : ∀ i : grid0.Coords, EltTy.bits .f32 = 32 ∨ (Rect.block (s := S2000000x128) S16000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16000x1.size a ≤ S2000000x1.size a
  hwx0_5 : ∀ i : grid0.Coords, EltTy.bits .f32 = 32 ∨ (Rect.block (s := S2000000x1) S16000x1.size (cc0_transform_5 i) (hinb0_5 i)).WholeWords (EltTy.packing .f32)

variable [Facts₀]

def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x1_S16000x1_1_0_0_1_n_n : DotDims S16000x64 S64x1 S16000x1 where
  lhsContracting := [1]
  rhsContracting := [0]
  lhsNonContracting := [0]
  rhsNonContracting := [1]
  lhsBatch := []
  rhsBatch := []
  wf := dot_S16000x64_S64x1_S16000x1_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf

abbrev win0_0 : Pipeline.Window sig grid0 :=
  Pipeline.Window.ofSpec (Memref.whole main_arg0) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S16000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000x128 : Shape := ⟨2, ![2000000, 128]⟩
abbrev S2000000 : Shape := ⟨1, ![2000000]⟩
abbrev S50000 : Shape := ⟨1, ![50000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2000000x64 : Shape := ⟨2, ![2000000, 64]⟩
abbrev S1x64 : Shape := ⟨2, ![1, 64]⟩
abbrev S_ : Shape := ⟨0, ![]⟩
abbrev S2000000x1 : Shape := ⟨2, ![2000000, 1]⟩
abbrev S1x1 : Shape := ⟨2, ![1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2000000x128, .f32⟩
  | .hbm, ⟨1, _⟩ => ⟨S2000000, .i32⟩
  | .hbm, ⟨2, _⟩ => ⟨S50000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S2000000x64, .f32⟩
  | .hbm, ⟨8, _⟩ => ⟨S1x64, .f32⟩
  | .hbm, ⟨9, _⟩ => ⟨S2000000x64, .f32⟩
  | .hbm, ⟨10, _⟩ => ⟨S2000000x64, .f32⟩
  | .hbm, ⟨11, _⟩ => ⟨S2000000x64, .f32⟩
  | .hbm, ⟨12, _⟩ => ⟨S2000000x64, .f32⟩
  | .hbm, ⟨13, _⟩ => ⟨S_, .f32⟩
  | .hbm, ⟨14, _⟩ => ⟨S2000000x64, .f32⟩
  | .hbm, ⟨15, _⟩ => ⟨S2000000x64, .f32⟩
  | .hbm, ⟨16, _⟩ => ⟨S_, .f32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S2000000x1, .f32⟩
  | .hbm, ⟨21, _⟩ => ⟨S1x1, .f32⟩
  | .hbm, ⟨22, _⟩ => ⟨S2000000x1, .f32⟩
  | .hbm, ⟨23, _⟩ => ⟨S2000000x1, .f32⟩
  | .hbm, ⟨24, _⟩ => ⟨S2000000, .f32⟩
  | .hbm, ⟨25, _⟩ => ⟨S_, .f32⟩
  | .hbm, ⟨26, _⟩ => ⟨S50000, .f32⟩
  | .hbm, ⟨27, _⟩ => ⟨S2000000x1, .i32⟩
  | .hbm, ⟨28, _⟩ => ⟨S50000, .f32⟩
  | .hbm, ⟨29, _⟩ => ⟨S_, .f32⟩
  | .hbm, ⟨30, _⟩ => ⟨S2000000, .f32⟩
  | .hbm, ⟨31, _⟩ => ⟨S_, .f32⟩
  | .hbm, ⟨32, _⟩ => ⟨S50000, .f32⟩
  | .hbm, ⟨33, _⟩ => ⟨S2000000x1, .i32⟩
  | .hbm, ⟨34, _⟩ => ⟨S50000, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000, .f32⟩
  | .hbm, ⟨44, _⟩ => ⟨S_, .i32⟩
  | .hbm, ⟨45, _⟩ => ⟨S2000000, .i32⟩
  | .hbm, ⟨46, _⟩ => ⟨S2000000, .i1⟩
  | .hbm, ⟨47, _⟩ => ⟨S_, .i32⟩
  | .hbm, ⟨48, _⟩ => ⟨S2000000, .i32⟩
  | .hbm, ⟨49, _⟩ => ⟨S2000000, .i32⟩
  | .hbm, ⟨50, _⟩ => ⟨S2000000, .i32⟩
  | .hbm, ⟨51, _⟩ => ⟨S2000000x1, .i32⟩
  | .hbm, ⟨52, _⟩ => ⟨S2000000, .f32⟩
  | .hbm, ⟨53, _⟩ => ⟨S2000000, .f32⟩
  | .hbm, ⟨54, _⟩ => ⟨S_, .i32⟩
  | .hbm, ⟨55, _⟩ => ⟨S2000000, .i32⟩
  | .hbm, ⟨56, _⟩ => ⟨S2000000, .i1⟩
  | .hbm, ⟨57, _⟩ => ⟨S_, .i32⟩
  | .hbm, ⟨58, _⟩ => ⟨S2000000, .i32⟩
  | .hbm, ⟨59, _⟩ => ⟨S2000000, .i32⟩
  | .hbm, ⟨60, _⟩ => ⟨S2000000, .i32⟩
  | .hbm, ⟨61, _⟩ => ⟨S2000000x1, .i32⟩
  | .hbm, ⟨62, _⟩ => ⟨S2000000, .f32⟩
  | .hbm, ⟨63, _⟩ => ⟨S2000000, .f32⟩
  | .hbm, ⟨64, _⟩ => ⟨S2000000, .f32⟩
  | _, _ => ⟨S2000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  dot_S2000000x128_S128x64_S2000000x64_1_0_0_1_n_n_wf : DotDims.WF S2000000x128 S128x64 S2000000x64 [1] [0] [0] [1] [] []
  dot_S2000000x64_S64x1_S2000000x1_1_0_0_1_n_n_wf : DotDims.WF S2000000x64 S64x1 S2000000x1 [1] [0] [0] [1] [] []
  scatter_S50000_S2000000x1_S2000000_n_0_0_1_wf : ScatterDims.WF S50000 S2000000x1 S2000000 [] [0] [0] 1
  gather_S50000_S2000000x1_S2000000_n_0_n_n_0_1_1_wf : GatherDims.WF S50000 S2000000x1 S2000000 [] [0] [] [0] [] 1 ![1]

variable [Facts₀]

def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf

class Facts : Prop extends Facts₀ where

variable [Facts]
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Mlp.lean ====
/-
  The per-atom network, one row at a time.

  A row `p` of the feature matrix `x` ([R, 128]) goes through a hidden layer of 64 units and one output unit:

      hidden p j = (sum over k of x (p, k) * w1 (k, j)) + b1 j
      gate h     = h * logistic h                        (the SiLU activation)
      atomOut p  = (sum over j of gate (hidden p j) * w2 (j, 0)) + b2 0

  on the extended reals. The output of row `p` depends on row `p` of `x` only, so the network applied to a block
  of rows is the corresponding block of the network applied to all rows (`atomOut_rows`): this is all that tiling
  the rows needs. `colOut` collects the outputs of all rows in one column.
-/
import Idealize.ShloMosaic.PureOps.Ideal
import Idealize.ShloMosaic.Lib.ValueIdx

noncomputable section

open scoped BigOperators

namespace Cert.AtomMlp

open Idealize.ShloMosaic Idealize.ShloMosaic.ValueIdx

variable {R : Nat}

/-- The hidden layer's pre-activation of row `p`, unit `j`. -/
def hidden (x : FVec Ideal ⟨2, ![R, 128]⟩ .f32) (w1 : FVec Ideal ⟨2, ![128, 64]⟩ .f32) (b1 : FVec Ideal ⟨1, ![64]⟩ .f32)
    (p : Fin R) (j : Fin 64) : Ideal .f32 :=
  (∑ k : Fin 128, x (ix2 p k) * w1 (ix2 k j)) + b1 (ix1 j)

/-- The activation: `h * logistic h`, where `logistic h = 1 / (1 + exp (-h))`. -/
def gate (h : Ideal .f32) : Ideal .f32 := h * Ideal.logistic h

/-- The network's output for row `p`. -/
def atomOut (x : FVec Ideal ⟨2, ![R, 128]⟩ .f32) (w1 : FVec Ideal ⟨2, ![128, 64]⟩ .f32) (b1 : FVec Ideal ⟨1, ![64]⟩ .f32)
    (w2 : FVec Ideal ⟨2, ![64, 1]⟩ .f32) (b2 : FVec Ideal ⟨1, ![1]⟩ .f32) (p : Fin R) : Ideal .f32 :=
  (∑ j : Fin 64, gate (hidden x w1 b1 p j) * w2 (ix2 j (0 : Fin 1))) + b2 (ix1 (0 : Fin 1))

/-- The outputs of all rows as one `[R, 1]` column: entry `(p, 0)` is the network's output for row `p`. -/
def colOut (x : FVec Ideal ⟨2, ![R, 128]⟩ .f32) (w1 : FVec Ideal ⟨2, ![128, 64]⟩ .f32) (b1 : FVec Ideal ⟨1, ![64]⟩ .f32)
    (w2 : FVec Ideal ⟨2, ![64, 1]⟩ .f32) (b2 : FVec Ideal ⟨1, ![1]⟩ .f32) : FVec Ideal ⟨2, ![R, 1]⟩ .f32 :=
  fun i => atomOut x w1 b1 w2 b2 ⟨(i 0).val, idx2_lt0 i⟩

theorem colOut_apply (x : FVec Ideal ⟨2, ![R, 128]⟩ .f32) (w1 : FVec Ideal ⟨2, ![128, 64]⟩ .f32) (b1 : FVec Ideal ⟨1, ![64]⟩ .f32)
    (w2 : FVec Ideal ⟨2, ![64, 1]⟩ .f32) (b2 : FVec Ideal ⟨1, ![1]⟩ .f32) (p : Fin R) (u : Fin 1) :
    colOut x w1 b1 w2 b2 (ix2 p u) = atomOut x w1 b1 w2 b2 p := rfl

/-- ROWS ARE INDEPENDENT: if row `q` of `y` is row `p` of `x`, the network's output for `y`'s row `q` is its output for
    `x`'s row `p`. -/
theorem atomOut_rows {R' : Nat} (x : FVec Ideal ⟨2, ![R, 128]⟩ .f32) (y : FVec Ideal ⟨2, ![R', 128]⟩ .f32)
    (w1 : FVec Ideal ⟨2, ![128, 64]⟩ .f32) (b1 : FVec Ideal ⟨1, ![64]⟩ .f32)
    (w2 : FVec Ideal ⟨2, ![64, 1]⟩ .f32) (b2 : FVec Ideal ⟨1, ![1]⟩ .f32) (p : Fin R) (q : Fin R')
    (h : ∀ k : Fin 128, y (ix2 q k) = x (ix2 p k)) :
    atomOut y w1 b1 w2 b2 q = atomOut x w1 b1 w2 b2 p := by
  unfold atomOut hidden
  simp only [h]

end Cert.AtomMlp

end
-- ==== Proof.Block.lean ====
/-
  What the kernel's body computes on one block of rows.

  The body loads a block of 16000 rows of `x` and the whole of `w1`, `b1`, `w2`, `b2`, multiplies the rows by `w1`
  (a plain matrix product into a zero accumulator), adds `b1` along the rows, applies `h * logistic h`, multiplies by
  `w2` (again a plain product into zero) and adds `b2`. Read at row `p` of the block (its one column), that is the
  per-atom network's output for row `p` of the block.
-/
import proofs.«138488_j77781857730661_1_alg».proof.Proof.Gen.KernelIdeal.Skeleton
import proofs.«138488_j77781857730661_1_alg».proof.Proof.LibPlainDot
import proofs.«138488_j77781857730661_1_alg».proof.Proof.Mlp
import Idealize.ShloMosaic.Lib.ValueLayout

noncomputable section

open scoped BigOperators

namespace Cert.AtomMlp

open Idealize.ShloMosaic Idealize.ShloMosaic.ValueIdx Cert.KernelIdeal Cert.KernelIdeal.Gen Cert.LibPlainDot

/-- The hidden layer of a block, read at row `q`, unit `j`: the rows' product with `w1` plus `b1` broadcast over
    the rows. -/
theorem block_hidden (x0 : FVec Ideal S16000x128 .f32) (x1 : FVec Ideal S128x64 .f32) (x2 : FVec Ideal S64 .f32)
    (q : Fin 16000) (j : Fin 64) :
    addf (matmul dot_S16000x128_S128x64_S16000x64_1_0_0_1_n_n none x0 x1 (constant S16000x64 .f32 0x00000000#32))
        (broadcastTo S16000x64 (shapeCast S1x64 x2 Facts₀.shapeCasts_S64_S1x64) Facts₀.broadcasts_S1x64_S16000x64) (ix2 q j)
      = hidden x0 x1 x2 q j := by
  rw [addf_apply, broadcastTo_1b_ab_apply, shapeCast_a_1a_apply]
  exact congrArg (· + x2 (ix1 j))
    (matmul_zero_apply (R := 16000) (K := 128) (C := 64) Facts₀.dot_S16000x128_S128x64_S16000x64_1_0_0_1_n_n_wf none x0 x1 q j)

/-- THE BODY'S RESULT AT ROW `p`: the network's output for row `p` of the loaded block. -/
theorem payload_apply (x0 : FVec Ideal S16000x128 .f32) (x1 : FVec Ideal S128x64 .f32) (x2 : FVec Ideal S64 .f32)
    (x3 : FVec Ideal S64x1 .f32) (x4 : FVec Ideal S1 .f32) (p : Fin 16000) (u : Fin 1) :
    k0_pay1 (F := Ideal) x0 x1 x2 x3 x4 (ix2 p u) = atomOut x0 x1 x2 x3 x4 p := by
  obtain rfl : u = 0 := Subsingleton.elim _ _
  unfold k0_pay1
  rw [addf_apply, broadcastTo_1b_ab_apply, shapeCast_a_1a_apply]
  refine congrArg (· + x4 (ix1 (0 : Fin 1))) ?_
  refine (matmul_zero_apply (R := 16000) (K := 64) (C := 1) Facts₀.dot_S16000x64_S64x1_S16000x1_1_0_0_1_n_n_wf none _ x3 p 0).trans ?_
  refine Finset.sum_congr rfl fun j _ => ?_
  refine congrArg (· * x3 (ix2 j (0 : Fin 1))) ?_
  rw [mulf_apply]
  show _ * Ideal.logistic _ = gate _
  rw [block_hidden x0 x1 x2 p j]
  rfl

end Cert.AtomMlp

end
-- ==== Proof.KernelArray.lean ====
/-
  From the kernel's blocks to its whole result array.

  The grid has 125 points; point `t` works on rows `16000 t … 16000 t + 15999`: it reads that block of `x` and the
  whole of `w1`, `b1`, `w2`, `b2` (their one block, at every point), and writes the same rows of the `[N, 1]`
  result. By the body's value on a block and the independence of the rows, what point `t` writes back is block
  `t` of the column of per-atom outputs of the whole `x`; the 125 blocks cover every row (row `r` is in block
  `r / 16000`), so the array the region leaves IS that column.
-/
import proofs.«138488_j77781857730661_1_alg».proof.Proof.Gen.KernelIdeal.Frame
import proofs.«138488_j77781857730661_1_alg».proof.Proof.Block
import Idealize.ShloMosaic.Lib.Pipeline.Value

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.AtomMlp

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the blocks of `x` and of the result move with the point along the rows;
    the other four operands stay at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `q` of point `t`'s block is row `16000 t + q` of the array. -/
theorem row_lt (t : Fin cfg0.N) (q : Fin 16000) : t.val * 16000 + q.val < 2000000 := by
  have ht : t.val < 125 := lt_of_lt_of_eq t.isLt N_0
  have hq := q.isLt
  omega

/-- The block of `x` at point `t`, read at `(q, k)`: the array at `(16000 t + q, k)`. -/
theorem iblk0_apply (c : Dev nD) (t : Fin cfg0.N) (q : Fin 16000) (k : Fin 128) :
    iblk m c 0 t (ix2 q k) = V m c main_arg0 (ix2 (⟨t.val * 16000 + q.val, row_lt t q⟩ : Fin 2000000) k) := by
  obtain ⟨e0, e1, -⟩ := idx_facts t
  show V m c main_arg0 (((cfg0.win 0).blk t).view.emb (ix2 q k)) = _
  refine congrArg _ (funext fun a => Fin.ext ?_)
  match a with
  | ⟨0, _⟩ => show win0_0.index t (0 : Fin 2) * 16000 + 1 * q.val = t.val * 16000 + q.val; omega
  | ⟨1, _⟩ => show win0_0.index t (1 : Fin 2) * 128 + 1 * k.val = k.val; omega

/-- The one block of `w1` is `w1`. -/
theorem iblk1_eq (c : Dev nD) (t : Fin cfg0.N) : (iblk m c 1 t : FVec Ideal S128x64 .f32) = V m c main_arg3 := by
  obtain ⟨-, -, e0, e1, -⟩ := idx_facts t
  funext y
  show V m c main_arg3 (((cfg0.win 1).blk t).view.emb y) = V m c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The one block of `b1` is `b1`. -/
theorem iblk2_eq (c : Dev nD) (t : Fin cfg0.N) : (iblk m c 2 t : FVec Ideal S64 .f32) = V m c main_arg4 := by
  obtain ⟨-, -, -, -, e0, -⟩ := idx_facts t
  funext y
  show V m c main_arg4 (((cfg0.win 2).blk t).view.emb y) = V m c main_arg4 y
  refine congrArg _ (funext fun a => Fin.ext ?_)
  match a with
  | ⟨0, _⟩ => show win0_2.index t (0 : Fin 1) * 64 + 1 * (y 0).val = (y 0).val; omega

/-- The one block of `w2` is `w2`. -/
theorem iblk3_eq (c : Dev nD) (t : Fin cfg0.N) : (iblk m c 3 t : FVec Ideal S64x1 .f32) = V m c main_arg5 := by
  obtain ⟨-, -, -, -, -, e0, e1, -⟩ := idx_facts t
  funext y
  show V m c main_arg5 (((cfg0.win 3).blk t).view.emb y) = V m c main_arg5 y
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- The one block of `b2` is `b2`. -/
theorem iblk4_eq (c : Dev nD) (t : Fin cfg0.N) : (iblk m c 4 t : FVec Ideal S1 .f32) = V m c main_arg6 := by
  obtain ⟨-, -, -, -, -, -, -, e0, -⟩ := idx_facts t
  funext y
  show V m c main_arg6 (((cfg0.win 4).blk t).view.emb y) = V m c main_arg6 y
  refine congrArg _ (funext fun a => Fin.ext ?_)
  match a with
  | ⟨0, _⟩ => show win0_4.index t (0 : Fin 1) * 1 + 1 * (y 0).val = (y 0).val; omega

/-- The column of per-atom outputs of the arrays as the region finds them. -/
abbrev column (c : Dev nD) : FVec Ideal S2000000x1 .f32 :=
  colOut (V m c main_arg0) (V m c main_arg3) (V m c main_arg4) (V m c main_arg5) (V m c main_arg6)

/-- WHAT POINT `t` WRITES BACK is block `t` of the column of per-atom outputs. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after0_5]
  unfold out0_5
  rw [View.canon_unit_zero hz2]
  simp only [View.ld_unit_zero (S := S16000x128) hz2, View.ld_unit_zero (S := S128x64) hz2,
    View.ld_unit_zero (S := S64) hz1, View.ld_unit_zero (S := S64x1) hz2, View.ld_unit_zero (S := S1) hz1]
  rw [iblk1_eq, iblk2_eq, iblk3_eq, iblk4_eq]
  obtain ⟨-, -, -, -, -, -, -, -, e0, e1⟩ := idx_facts t
  funext y
  obtain ⟨p, u, rfl⟩ : ∃ (p : Fin 16000) (u : Fin 1), y = ix2 p u := ⟨y 0, y 1, eq_ix2 y⟩
  show k0_pay1 (F := Ideal) (iblk m c 0 t) (V m c main_arg3) (V m c main_arg4) (V m c main_arg5) (V m c main_arg6) (ix2 p u)
    = column m c (((cfg0.win 5).blk t).view.emb (ix2 p u))
  refine (payload_apply (iblk m c 0 t) (V m c main_arg3) (V m c main_arg4) (V m c main_arg5) (V m c main_arg6) p u).trans ?_
  have hemb : ((cfg0.win 5).blk t).view.emb (ix2 p u)
      = ix2 (⟨t.val * 16000 + p.val, row_lt t p⟩ : Fin 2000000) (0 : Fin 1) :=
    funext fun a => Fin.ext (by
      match a with
      | ⟨0, _⟩ => show win0_5.index t (0 : Fin 2) * 16000 + 1 * p.val = t.val * 16000 + p.val; omega
      | ⟨1, _⟩ => show win0_5.index t (1 : Fin 2) * 1 + 1 * u.val = 0; have := u.isLt; omega)
  rw [hemb]
  exact atomOut_rows (V m c main_arg0) (iblk m c 0 t) (V m c main_arg3) (V m c main_arg4) (V m c main_arg5) (V m c main_arg6)
    ⟨t.val * 16000 + p.val, row_lt t p⟩ p (fun k => iblk0_apply m c t p k)

/-- An index of the result array is in point `t`'s block iff each coordinate is in the block's range on its axis. -/
theorem mem_blk (t : Fin cfg0.N) (i : S2000000x1.Idx) :
    i ∈ ((cfg0.win 5).blk t).view.set ↔ ∀ a : Fin 2, win0_5.index t a * S16000x1.size a ≤ (i a).val
      ∧ (i a).val < win0_5.index t a * S16000x1.size a + S16000x1.size a := by
  show i ∈ ((View.whole main_v0).slice (win0_5.rect t)).set ↔ _
  rw [View.set_slice_whole, Rect.mem_set_unit]
  exact Iff.rfl

/-- Every row is in some point's block: row `r` in block `r / 16000`. -/
theorem cover (i : S2000000x1.Idx) :
    ∃ t : Fin cfg0.N, (cfg0.win 5).flush t = true ∧ i ∈ ((cfg0.win 5).blk t).view.set := by
  have hi0 : (i 0).val < 2000000 := (i 0).isLt
  have hi1 : (i 1).val < 1 := (i 1).isLt
  have hN : cfg0.N = 125 := N_0
  obtain ⟨t, ht⟩ : ∃ t : Fin cfg0.N, t.val = (i 0).val / 16000 := ⟨⟨(i 0).val / 16000, by rw [hN]; omega⟩, rfl⟩
  obtain ⟨-, -, -, -, -, -, -, -, e0, e1⟩ := idx_facts t
  refine ⟨t, flush0_5 t, ?_⟩
  rw [mem_blk]
  intro a
  match a with
  | ⟨0, _⟩ =>
    show win0_5.index t (0 : Fin 2) * 16000 ≤ (i 0).val ∧ (i 0).val < win0_5.index t (0 : Fin 2) * 16000 + 16000
    omega
  | ⟨1, _⟩ =>
    show win0_5.index t (1 : Fin 2) * 1 ≤ (i 1).val ∧ (i 1).val < win0_5.index t (1 : Fin 2) * 1 + 1
    omega

/-- THE RESULT ARRAY AFTER THE REGION: the column of per-atom outputs. -/
theorem final (c : Dev nD) : (dats m 0 c).arrAt 5 cfg0.N = column m c :=
  (dats m 0 c).arrAt_eq_of_cover 5 (column m c) (fun t _ => flushed_eq m c t) cover

end Cert.KernelIdeal.Rows

end
-- ==== Proof.Correction.lean ====
/-
  The total-charge correction, shared by both programs.

  After the per-atom network both programs do the same thing with its result `a` (one number per atom), the atoms'
  molecule numbers `batch` and the molecules' target charges `charge`: per molecule, add up `a` over its atoms and
  count its atoms (two scatter-adds into zeros); per atom, read back its molecule's target, sum and count (three
  gathers at the atom's molecule number, a negative number counted from the end), and return

      a + (target - sum) / count.

  It is stated here once, as a function of `a`, so that the two programs' results are this one function of two
  arrays that are then shown equal; nothing in the proof looks inside it.
-/
import Idealize.ShloMosaic.PureOps.Ideal
import Idealize.ShloMosaic.PureOps.Contract
import Idealize.ShloMosaic.PureOps.ShapeOps
import Idealize.ShloMosaic.PureOps.Vector

noncomputable section

namespace Cert.AtomMlp

open Idealize.ShloMosaic

/-- One entry per molecule. -/
abbrev SMol : Shape := ⟨1, ![50000]⟩
/-- One entry per atom. -/
abbrev SAtom : Shape := ⟨1, ![2000000]⟩
/-- One entry per atom, as a column. -/
abbrev SAtomCol : Shape := ⟨2, ![2000000, 1]⟩
/-- A scalar. -/
abbrev SScalar : Shape := ⟨0, ![]⟩

/-- The atoms' molecule numbers as gather indices: a negative number has the number of molecules added, and the
    vector is laid out as a column of one-entry index vectors. -/
def wrapIdx (hN : SScalar.BroadcastsInDim SAtom (![] : Fin 0 → Fin SAtom.rank))
    (hc : SAtom.BroadcastsInDim SAtomCol (![0] : Fin 1 → Fin SAtomCol.rank)) (batch : IVec SAtom 32) : IVec SAtomCol 32 :=
  broadcastInDim SAtomCol ![0] hc
    (select (cmpi .slt batch (broadcastInDim SAtom ![] hN (constantI SScalar 32 0#32)))
      (addi batch (broadcastInDim SAtom ![] hN (constantI SScalar 32 50000#32))) batch)

/-- The corrected per-atom values: `a + (target - sum) / count`, with `sum` and `count` the per-molecule totals of
    `a` and of the constant 1, and all three read back at each atom's molecule. -/
def correct (sd : ScatterDims SMol SAtomCol SAtom) (gd : GatherDims SMol SAtomCol SAtom)
    (hM : SScalar.BroadcastsInDim SMol (![] : Fin 0 → Fin SMol.rank))
    (hN : SScalar.BroadcastsInDim SAtom (![] : Fin 0 → Fin SAtom.rank))
    (hc : SAtom.BroadcastsInDim SAtomCol (![0] : Fin 1 → Fin SAtomCol.rank))
    (batch : IVec SAtom 32) (charge : FVec Ideal SMol .f32) (a : FVec Ideal SAtom .f32) : FVec Ideal SAtom .f32 :=
  addf a (Host.divf
    (subf (Host.gather gd charge (wrapIdx hN hc batch))
      (Host.gather gd
        (Host.scatterAdd sd (broadcastInDim SMol ![] hM (constant (F := Ideal) SScalar .f32 0x00000000#32))
          (broadcastInDim SAtomCol ![0] hc batch) a)
        (wrapIdx hN hc batch)))
    (Host.gather gd
      (Host.scatterAdd sd (broadcastInDim SMol ![] hM (constant (F := Ideal) SScalar .f32 0x00000000#32))
        (broadcastInDim SAtomCol ![0] hc batch)
        (broadcastInDim SAtom ![] hN (constant (F := Ideal) SScalar .f32 0x3F800000#32)))
      (wrapIdx hN hc batch)))

end Cert.AtomMlp

end
-- ==== Proof.KernelTail.lean ====
/-
  The kernel program's lines after the region.

  After the region the kernel's program flattens the `[N, 1]` result to a vector and applies the total-charge
  correction to it: its 41 host operations, run from any contents `W` of the buffers, leave in the result buffer
  the correction of the flattened `[N, 1]` array, of the molecule numbers and of the target charges found in `W`.
-/
import proofs.«138488_j77781857730661_1_alg».proof.Proof.Gen.KernelIdeal.Launch
import proofs.«138488_j77781857730661_1_alg».proof.Proof.Correction
import Idealize.ShloMosaic.Lib.StableHlo.Run

noncomputable section

namespace Cert.KernelIdeal.Tail

open Idealize.ShloMosaic Idealize.ShloMosaic.TcCoe Idealize.SL.Sem Idealize.ShloMosaic.StableHlo
open Cert.KernelIdeal Cert.KernelIdeal.Gen Cert.AtomMlp

/-- The correction with the kernel program's own dimension records. -/
abbrev corrected (batch : IVec S2000000 32) (charge : FVec Ideal S50000 .f32) (col : FVec Ideal S2000000x1 .f32) :
    FVec Ideal S2000000 .f32 :=
  correct scatter_S50000_S2000000x1_S2000000_n_0_0_1 gather_S50000_S2000000x1_S2000000_n_0_n_n_0_1_1
    Facts₀.bcast_S_S50000 Facts₀.bcast_S_S2000000 Facts₀.bcast_S2000000_S2000000x1_0 batch charge
    (shapeCast S2000000 col Facts₀.shapeCasts_S2000000x1_S2000000)

set_option maxRecDepth 8192 in
set_option maxHeartbeats 2000000 in
/-- THE LINES AFTER THE REGION, from any buffer contents `W`: the result buffer ends at the correction of the
    region's `[N, 1]` array. -/
theorem tail_eq (W : Valuation τ sig (Elt Ideal)) :
    StableHlo.after (hostOps1 (F := Ideal)) W (Proc.devRef .tc main_v32)
      = corrected (W (Proc.devRef .tc main_arg1)) (W (Proc.devRef .tc main_arg2)) (W (Proc.devRef .tc main_v0)) := by
  after_results_simp
  rfl

end Cert.KernelIdeal.Tail

end
-- ==== Proof.KernelRun.lean ====
/-
  The kernel program's run, read: the result buffer ends at the total-charge correction of the column of per-atom
  outputs.

  The run leaves the region's `[N, 1]` array at the column of per-atom outputs (the blocks cover it) and every other
  buffer as the region found it; the lines after the region then write the correction of that array, of the
  molecule numbers and of the target charges into the result buffer, and change no argument.
-/
import proofs.«138488_j77781857730661_1_alg».proof.Proof.KernelArray
import proofs.«138488_j77781857730661_1_alg».proof.Proof.KernelTail

noncomputable section

namespace Cert.KernelIdeal.Rows

open Idealize.ShloMosaic Idealize.ShloMosaic.TcCoe Idealize.ShloMosaic.ValueIdx Idealize.SL.Sem
open Idealize.ShloMosaic.Pipeline (Dat)
open Cert.KernelIdeal Cert.KernelIdeal.Gen Cert.AtomMlp

variable (m : (ℓ : Loc nD τ sig) → Buf (Elt Ideal) ℓ) (ρ : Dev nD → PrngReg)

/-- What the lines after the region leave in the result buffer. -/
theorem result_eq (c : Dev nD) :
    Pipeline.afterTail₀ cfgs (dats m) 0 (V0 m) [hostOps1] c main_v32
      = Tail.corrected (m ((c.tc : Thread nD τ).loc main_arg1)) (m ((c.tc : Thread nD τ).loc main_arg2)) (column m c) := by
  have h0 : Pipeline.withArrays (cfgs 0).spec c (V0 m c) (fun w => (dats m 0 c).arrAt w (cfgs 0).N) (Proc.devRef .tc main_v0)
      = column m c :=
    (Pipeline.withArrays_arr spec0 launch0.win.arr_inj c _ _ 5).trans (final m c)
  unfold Pipeline.afterTail₀
  show StableHlo.after (hostOps1 (F := Ideal)) _ (Proc.devRef .tc main_v32) = _
  rw [Tail.tail_eq, h0,
    Pipeline.withArrays_of_ne _ c (V0 m c) _ main_arg1 (by exact (by decide : ∀ w, Pipeline.arrRef spec0 w ≠ main_arg1)),
    Pipeline.withArrays_of_ne _ c (V0 m c) _ main_arg2 (by exact (by decide : ∀ w, Pipeline.arrRef spec0 w ≠ main_arg2))]
  rfl

/-- THE KERNEL PROGRAM'S RUN: every weakly fair execution terminates with the result buffer at the correction of
    the column of per-atom outputs and the arguments unchanged. -/
theorem run : θ_run defs (onTc (τ := τ) (main (F := Ideal))) ⟨m, fun _ => 0, ρ⟩ fun r => ∀ c : Dev nD,
      r.2.mem ((c.tc : Thread nD τ).loc main_v32)
        = Tail.corrected (m ((c.tc : Thread nD τ).loc main_arg1)) (m ((c.tc : Thread nD τ).loc main_arg2)) (column m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c).2 main_v32 (Pipeline.mem_restRefs_of main_v32 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 4).trans (((dats m 0 c).arrAt_in 4 rfl _).trans ((A_eq m c 4).trans (V_main_arg6 m c)))⟩)
    (run_main m ρ)

end Cert.KernelIdeal.Rows

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«138488_j77781857730661_1_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.RefRows.lean ====
/-
  What the reference computes for one atom.

  The reference multiplies all rows of `x` by `w1` at once (one `dot_general`), adds `b1` broadcast over the rows,
  applies `h * (1 / (1 + exp (-h)))`, multiplies by `w2` and adds `b2`. A `dot_general` read at `(p, q)` is the sum
  over `k` of `lhs (p, k) * rhs (k, q)`, and `1 / (1 + exp (-h))` is `logistic h` by definition (the constant `1.0`
  denotes the real number 1), so its `[N, 1]` result before the final reshape holds, in row `p`, the per-atom
  network's output for row `p` of `x`.
-/
import proofs.«138488_j77781857730661_1_alg».proof.Proof.Gen.ReferenceIdeal.Read
import proofs.«138488_j77781857730661_1_alg».proof.Proof.LibHostDot
import proofs.«138488_j77781857730661_1_alg».proof.Proof.Mlp
import Idealize.ShloMosaic.Lib.IdealHost

noncomputable section

open scoped BigOperators

namespace Cert.AtomMlp

open Idealize.ShloMosaic Idealize.ShloMosaic.ValueIdx Cert.ReferenceIdeal Cert.ReferenceIdeal.Read Cert.LibHostDot

section
variable (x0 : FVec Ideal S2000000x128 .f32) (x3 : FVec Ideal S128x64 .f32) (x4 : FVec Ideal S64 .f32)
  (x5 : FVec Ideal S64x1 .f32) (x6 : FVec Ideal S1 .f32)

/-- The reference's hidden layer at row `p`, unit `j`. -/
theorem ref_hidden (p : Fin 2000000) (j : Fin 64) :
    val_main_v3 (F := Ideal) x0 x3 x4 (ix2 p j) = hidden x0 x3 x4 p j := by
  have e : idx_main_v1 (idx_main_v2 (ix2 p j)) = ix1 j :=
    funext fun a => Fin.ext (by match a with | ⟨0, _⟩ => rfl)
  rw [val_main_v3_apply, val_main_v2_apply, val_main_v1_apply, e]
  refine congrArg (· + x4 (ix1 j)) ?_
  unfold val_main_v0
  exact hostDot_apply (R := 2000000) (K := 128) (C := 64)
    Facts₀.dot_S2000000x128_S128x64_S2000000x64_1_0_0_1_n_n_wf none x0 x3 p j

/-- The reference's activation `h * (1 / (1 + exp (-h)))` is `h * logistic h`. -/
theorem ref_gate (p : Fin 2000000) (j : Fin 64) :
    val_main_v4 (F := Ideal) x0 x3 x4 (ix2 p j) = gate (hidden x0 x3 x4 p j) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, ref_hidden]
  show hidden x0 x3 x4 p j * Ideal.div (Ideal.ofBits .f32 0x3F800000#32)
      (Ideal.ofBits .f32 0x3F800000#32 + Ideal.exp (-hidden x0 x3 x4 p j)) = _
  rw [Ideal.ofBits_one_f32]
  rfl

/-- THE REFERENCE'S `[N, 1]` RESULT AT ROW `p`: the network's output for row `p`. -/
theorem ref_col (p : Fin 2000000) (u : Fin 1) :
    val_main_v8 (F := Ideal) x0 x3 x4 x5 x6 (ix2 p u) = atomOut x0 x3 x4 x5 x6 p := by
  obtain rfl : u = 0 := Subsingleton.elim _ _
  have e : idx_main_v6 (idx_main_v7 (ix2 p (0 : Fin 1))) = ix1 (0 : Fin 1) :=
    funext fun a => Fin.ext (by match a with | ⟨0, _⟩ => rfl)
  rw [val_main_v8_apply, val_main_v7_apply, val_main_v6_apply, e]
  refine congrArg (· + x6 (ix1 (0 : Fin 1))) ?_
  unfold val_main_v5
  refine (hostDot_apply (R := 2000000) (K := 64) (C := 1)
    Facts₀.dot_S2000000x64_S64x1_S2000000x1_1_0_0_1_n_n_wf none _ x5 p 0).trans ?_
  exact Finset.sum_congr rfl fun j _ => by rw [ref_gate]

end

end Cert.AtomMlp

end
-- ==== Proof.RefTail.lean ====
/-
  The reference's result as the correction of the column of per-atom outputs.

  The reference's `[N, 1]` array before its reshape is the column of per-atom outputs (row by row, by the
  reference's value for one atom), and everything the reference does after it — the reshape to a vector, the two
  scatter-adds, the three gathers, the quotient and the final sum — is the total-charge correction of that column.
-/
import proofs.«138488_j77781857730661_1_alg».proof.Proof.Gen.ReferenceIdeal.Read
import proofs.«138488_j77781857730661_1_alg».proof.Proof.RefRows
import proofs.«138488_j77781857730661_1_alg».proof.Proof.Correction

noncomputable section

namespace Cert.ReferenceIdeal.Tail

open Idealize.ShloMosaic Idealize.ShloMosaic.ValueIdx Cert.ReferenceIdeal Cert.ReferenceIdeal.Read Cert.AtomMlp

/-- The correction with the reference program's own dimension records. -/
abbrev corrected (batch : IVec S2000000 32) (charge : FVec Ideal S50000 .f32) (col : FVec Ideal S2000000x1 .f32) :
    FVec Ideal S2000000 .f32 :=
  correct scatter_S50000_S2000000x1_S2000000_n_0_0_1 gather_S50000_S2000000x1_S2000000_n_0_n_n_0_1_1
    Facts₀.bcast_S_S50000 Facts₀.bcast_S_S2000000 Facts₀.bcast_S2000000_S2000000x1_0 batch charge
    (shapeCast S2000000 col Facts₀.shapeCasts_S2000000x1_S2000000)

section
variable (x0 : FVec Ideal S2000000x128 .f32) (x1 : IVec S2000000 32) (x2 : FVec Ideal S50000 .f32)
  (x3 : FVec Ideal S128x64 .f32) (x4 : FVec Ideal S64 .f32) (x5 : FVec Ideal S64x1 .f32) (x6 : FVec Ideal S1 .f32)

/-- The reference's `[N, 1]` array is the column of per-atom outputs. -/
theorem col_eq : val_main_v8 (F := Ideal) x0 x3 x4 x5 x6 = colOut x0 x3 x4 x5 x6 := by
  funext i
  obtain ⟨p, u, rfl⟩ : ∃ (p : Fin 2000000) (u : Fin 1), i = ix2 p u := ⟨i 0, i 1, eq_ix2 i⟩
  exact ref_col x0 x3 x4 x5 x6 p u

set_option maxHeartbeats 1000000 in
/-- THE REFERENCE'S RESULT: the correction of the column of per-atom outputs. -/
theorem result_eq :
    val_main_v40 (F := Ideal) x0 x1 x2 x3 x4 x5 x6 = corrected x1 x2 (colOut x0 x3 x4 x5 x6) := by
  rw [← col_eq]
  rfl

end

end Cert.ReferenceIdeal.Tail

end
-- ==== Proof.lean ====
/-
  The proof of `Cert.Claim`: a per-atom network computed block by block equals the same network computed on all
  atoms at once, and the total-charge correction that follows is one function of its result.

  The kernel's program runs the network `x ↦ (silu (x · w1 + b1)) · w2 + b2` on blocks of 16000 atoms inside a
  region of 125 grid points, flattens the `[N, 1]` result and applies, on the host, the total-charge correction
  `a ↦ a + (target − Σ_mol a) / count_mol`; the reference runs the network on all N atoms with two whole matrix
  products and applies the same correction. On the extended reals:

  * a block's result at row `p` is the network's output for that row (Proof/Block.lean): a matrix product into a
    zero accumulator is the plain sum of products (Proof/LibPlainDot.lean), and `logistic` is `1 / (1 + exp (-h))`;
  * the rows are independent (Proof/Mlp.lean), the blocks tile the rows, so the region's array is the column of
    per-atom outputs (Proof/KernelArray.lean), and the lines after the region write its correction
    (Proof/KernelTail.lean, Proof/KernelRun.lean);
  * the reference's `[N, 1]` array is the same column — a `dot_general` is the same plain sum
    (Proof/LibHostDot.lean), its `1 / (1 + exp (-h))` spelt out is `logistic h` (Proof/RefRows.lean) — and the rest
    of it is the same correction (Proof/RefTail.lean, over Proof/Correction.lean).

  No step uses a law that fails at an infinity, so the finiteness of the inputs is never opened. The three frames
  are the generated frame runs (the reference's: its generated run with the result dropped), and nothing was
  rewritten between the kernel and its idealization, so `preserves` is trivial.
-/
import proofs.«138488_j77781857730661_1_alg».proof.Defs
import proofs.«138488_j77781857730661_1_alg».proof.Proof.Gen.Kernel
import proofs.«138488_j77781857730661_1_alg».proof.Proof.Gen.Kernel.Frame
import proofs.«138488_j77781857730661_1_alg».proof.Proof.Gen.KernelIdeal
import proofs.«138488_j77781857730661_1_alg».proof.Proof.Gen.KernelIdeal.Frame
import proofs.«138488_j77781857730661_1_alg».proof.Proof.Gen.ReferenceIdeal
import proofs.«138488_j77781857730661_1_alg».proof.Proof.Gen.Pre_finite_inputs
import proofs.«138488_j77781857730661_1_alg».proof.Proof.Gen.ReferenceIdeal.Run
import proofs.«138488_j77781857730661_1_alg».proof.Proof.Gen.ReferenceIdeal.Read
import proofs.«138488_j77781857730661_1_alg».proof.Proof.KernelRun
import proofs.«138488_j77781857730661_1_alg».proof.Proof.RefTail
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result buffer at the correction of the column of per-atom outputs of the same
    arguments: the kernel's by its run read block by block, the reference's by its run read row by row. -/
theorem algebraic : Cert.algebraic_KernelIdeal_ReferenceIdeal := by
  intro m ρ m' ρ' _ hagree
  refine ⟨fun c => Cert.KernelIdeal.Tail.corrected
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.KernelIdeal.Rows.column m c), Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v40_eq m' c).trans ?_
  refine (Cert.ReferenceIdeal.Tail.result_eq _ _ _ _ _ _ _).trans ?_
  rw [(hagree c).1, (hagree c).2.1, (hagree c).2.2.1, (hagree c).2.2.2.1, (hagree c).2.2.2.2.1,
    (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
